-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x55296x64 : Shape := ⟨3, ![8, 55296, 64]⟩
abbrev S221184 : Shape := ⟨1, ![221184]⟩
abbrev S256x64 : Shape := ⟨2, ![256, 64]⟩
abbrev S256 : Shape := ⟨1, ![256]⟩
abbrev S_ : Shape := ⟨0, ![]⟩

class Facts : Prop where
  bcast_S_S8x55296x64 : S_.BroadcastsInDim S8x55296x64 (![] : Fin 0 → Fin S8x55296x64.rank)
  reducesTo_S8x55296x64_S_d0_1_2 : S8x55296x64.ReducesTo [0, 1, 2] S_
  h_S_ : 0 < S_.numel
  bcast_S_S256x64 : S_.BroadcastsInDim S256x64 (![] : Fin 0 → Fin S256x64.rank)
  reducesTo_S256x64_S_d0_1 : S256x64.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  main_v18

def fn {F : FTy → Type} [FloatOps F] (main_arg0 : FVec F S8x55296x64 .f32) (main_arg1 : IVec S221184 32) (main_arg2 : IVec S221184 32) (main_arg3 : FVec F S256x64 .f32) (main_arg4 : FVec F S256 .f32) (main_arg5 : FVec F S256x64 .f32) : IVec S_ 1 :=
  let main_v0 : FVec F S8x55296x64 .f32 := Host.absf main_arg0
  let main_cst : FVec F S_ .f32 := constant S_ .f32 0x7F800000#32
  let main_v1 : FVec F S8x55296x64 .f32 := broadcastInDim S8x55296x64 ![] bcast_S_S8x55296x64 main_cst
  let main_v2 : IVec S8x55296x64 1 := cmpf .olt main_v0 main_v1
  let main_c : IVec S_ 1 := constantI S_ 1 1#1
  let main_v3 : IVec S_ 1 := (fun x v => Host.reduce IntOp.andi x v reducesTo_S8x55296x64_S_d0_1_2 h_S_) main_v2 main_c
  let main_v4 : FVec F S256x64 .f32 := Host.absf main_arg3
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x64 .f32 := Host.absf main_arg5
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_v13 main_v16
-- ==== Kernel.lean ====
abbrev S8x55296x64 : Shape := ⟨3, ![8, 55296, 64]⟩
abbrev S221184 : Shape := ⟨1, ![221184]⟩
abbrev S256x64 : Shape := ⟨2, ![256, 64]⟩
abbrev S256 : Shape := ⟨1, ![256]⟩
abbrev S_ : Shape := ⟨0, ![]⟩
abbrev S221184x1 : Shape := ⟨2, ![221184, 1]⟩
abbrev S8x221184x64 : Shape := ⟨3, ![8, 221184, 64]⟩
abbrev S55296 : Shape := ⟨1, ![55296]⟩
abbrev S442368x64 : Shape := ⟨2, ![442368, 64]⟩
abbrev S1x55296x1 : Shape := ⟨3, ![1, 55296, 1]⟩
abbrev S8x55296x1 : Shape := ⟨3, ![8, 55296, 1]⟩
abbrev S442368x1 : Shape := ⟨2, ![442368, 1]⟩
abbrev S64x256 : Shape := ⟨2, ![64, 256]⟩
abbrev S442368x256 : Shape := ⟨2, ![442368, 256]⟩
abbrev S6144x64 : Shape := ⟨2, ![6144, 64]⟩
abbrev S6144x1 : Shape := ⟨2, ![6144, 1]⟩
abbrev S6144x256 : Shape := ⟨2, ![6144, 256]⟩
abbrev S1x256 : Shape := ⟨2, ![1, 256]⟩
abbrev S8x55296x256 : Shape := ⟨3, ![8, 55296, 256]⟩

abbrev nBuf : Space → Nat
  | .hbm => 54
  | .vmem => 11
  | .smem => 0
  | _ => 0

abbrev bufTy : (tb : Table) → Fin (tcTables nBuf tb) → BufTy
  | .hbm, ⟨0, _⟩ => ⟨S8x55296x64, .f32⟩
  | .hbm, ⟨1, _⟩ => ⟨S221184, .i32⟩
  | .hbm, ⟨2, _⟩ => ⟨S221184, .i32⟩
  | .hbm, ⟨3, _⟩ => ⟨S256x64, .f32⟩
  | .hbm, ⟨4, _⟩ => ⟨S256, .f32⟩
  | .hbm, ⟨5, _⟩ => ⟨S256x64, .f32⟩
  | .hbm, ⟨6, _⟩ => ⟨S_, .i32⟩
  | .hbm, ⟨7, _⟩ => ⟨S221184, .i32⟩
  | .hbm, ⟨8, _⟩ => ⟨S221184, .i1⟩
  | .hbm, ⟨9, _⟩ => ⟨S_, .i32⟩
  | .hbm, ⟨10, _⟩ => ⟨S221184, .i32⟩
  | .hbm, ⟨11, _⟩ => ⟨S221184, .i32⟩
  | .hbm, ⟨12, _⟩ => ⟨S221184, .i32⟩
  | .hbm, ⟨13, _⟩ => ⟨S221184x1, .i32⟩
  | .hbm, ⟨14, _⟩ => ⟨S8x221184x64, .f32⟩
  | .hbm, ⟨15, _⟩ => ⟨S_, .f32⟩
  | .hbm, ⟨16, _⟩ => ⟨S8x55296x64, .f32⟩
  | .hbm, ⟨17, _⟩ => ⟨S_, .i32⟩
  | .hbm, ⟨18, _⟩ => ⟨S221184, .i32⟩
  | .hbm, ⟨19, _⟩ => ⟨S221184, .i1⟩
  | .hbm, ⟨20, _⟩ => ⟨S_, .i32⟩
  | .hbm, ⟨21, _⟩ => ⟨S221184, .i32⟩
  | .hbm, ⟨22, _⟩ => ⟨S221184, .i32⟩
  | .hbm, ⟨23, _⟩ => ⟨S221184, .i32⟩
  | .hbm, ⟨24, _⟩ => ⟨S221184x1, .i32⟩
  | .hbm, ⟨25, _⟩ => ⟨S8x55296x64, .f32⟩
  | .hbm, ⟨26, _⟩ => ⟨S_, .f32⟩
  | .hbm, ⟨27, _⟩ => ⟨S55296, .f32⟩
  | .hbm, ⟨28, _⟩ => ⟨S_, .i32⟩
  | .hbm, ⟨29, _⟩ => ⟨S221184, .i32⟩
  | .hbm, ⟨30, _⟩ => ⟨S221184, .i1⟩
  | .hbm, ⟨31, _⟩ => ⟨S_, .i32⟩
  | .hbm, ⟨32, _⟩ => ⟨S221184, .i32⟩
  | .hbm, ⟨33, _⟩ => ⟨S221184, .i32⟩
  | .hbm, ⟨34, _⟩ => ⟨S221184, .i32⟩
  | .hbm, ⟨35, _⟩ => ⟨S221184x1, .i32⟩
  | .hbm, ⟨36, _⟩ => ⟨S_, .f32⟩
  | .hbm, ⟨37, _⟩ => ⟨S221184, .f32⟩
  | .hbm, ⟨38, _⟩ => ⟨S55296, .f32⟩
  | .hbm, ⟨39, _⟩ => ⟨S_, .f32⟩
  | .hbm, ⟨40, _⟩ => ⟨S55296, .f32⟩
  | .hbm, ⟨41, _⟩ => ⟨S55296, .f32⟩
  | .hbm, ⟨42, _⟩ => ⟨S_, .f32⟩
  | .hbm, ⟨43, _⟩ => ⟨S55296, .f32⟩
  | .hbm, ⟨44, _⟩ => ⟨S55296, .f32⟩
  | .hbm, ⟨45, _⟩ => ⟨S442368x64, .f32⟩
  | .hbm, ⟨46, _⟩ => ⟨S442368x64, .f32⟩
  | .hbm, ⟨47, _⟩ => ⟨S1x55296x1, .f32⟩
  | .hbm, ⟨48, _⟩ => ⟨S8x55296x1, .f32⟩
  | .hbm, ⟨49, _⟩ => ⟨S442368x1, .f32⟩
  | .hbm, ⟨50, _⟩ => ⟨S64x256, .f32⟩
  | .hbm, ⟨51, _⟩ => ⟨S64x256, .f32⟩
  | .hbm, ⟨52, _⟩ => ⟨S442368x256, .f32⟩
  | .hbm, ⟨53, _⟩ => ⟨S8x55296x256, .f32⟩
  | .local _ .vmem, ⟨0, _⟩ => ⟨S6144x64, .f32⟩
  | .local _ .vmem, ⟨1, _⟩ => ⟨S6144x64, .f32⟩
  | .local _ .vmem, ⟨2, _⟩ => ⟨S6144x64, .f32⟩
  | .local _ .vmem, ⟨3, _⟩ => ⟨S6144x64, .f32⟩
  | .local _ .vmem, ⟨4, _⟩ => ⟨S6144x1, .f32⟩
  | .local _ .vmem, ⟨5, _⟩ => ⟨S6144x1, .f32⟩
  | .local _ .vmem, ⟨6, _⟩ => ⟨S64x256, .f32⟩
  | .local _ .vmem, ⟨7, _⟩ => ⟨S256, .f32⟩
  | .local _ .vmem, ⟨8, _⟩ => ⟨S64x256, .f32⟩
  | .local _ .vmem, ⟨9, _⟩ => ⟨S6144x256, .f32⟩
  | .local _ .vmem, ⟨10, _⟩ => ⟨S6144x256, .f32⟩
  | _, _ => ⟨S8x55296x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_c_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_v25 : Ref sig .tc := ⟨.hbm, 41, rfl⟩
abbrev main_cst_8 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![72], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6144x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6144x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6144x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S6144x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S221184 : S_.BroadcastsInDim S221184 (![] : Fin 0 → Fin S221184.rank)
  bcast_S221184_S221184x1_0 : S221184.BroadcastsInDim S221184x1 (![0] : Fin 1 → Fin S221184x1.rank)
  bcast_S_S8x55296x64 : S_.BroadcastsInDim S8x55296x64 (![] : Fin 0 → Fin S8x55296x64.rank)
  bcast_S_S55296 : S_.BroadcastsInDim S55296 (![] : Fin 0 → Fin S55296.rank)
  shapeCasts_S8x55296x64_S442368x64 : S8x55296x64.ShapeCasts S442368x64
  bcast_S55296_S1x55296x1_1 : S55296.BroadcastsInDim S1x55296x1 (![1] : Fin 1 → Fin S1x55296x1.rank)
  bcast_S1x55296x1_S8x55296x1_0_1_2 : S1x55296x1.BroadcastsInDim S8x55296x1 (![0, 1, 2] : Fin 3 → Fin S8x55296x1.rank)
  shapeCasts_S8x55296x1_S442368x1 : S8x55296x1.ShapeCasts S442368x1
  transposes_S256x64_S64x256_1_0 : S256x64.Transposes [1, 0] S64x256
  inb_S6144x64_S6144x64_0_0 : ∀ a, (![0, 0] : Fin 2 → Nat) a + S6144x64.size a ≤ S6144x64.size a
  h_S6144x64 : 0 < S6144x64.numel
  shapeCasts_S6144x64_S6144x64 : S6144x64.ShapeCasts S6144x64
  inb_S6144x1_S6144x1_0_0 : ∀ a, (![0, 0] : Fin 2 → Nat) a + S6144x1.size a ≤ S6144x1.size a
  h_S6144x1 : 0 < S6144x1.numel
  shapeCasts_S6144x1_S6144x1 : S6144x1.ShapeCasts S6144x1
  broadcasts_S6144x1_S6144x64 : S6144x1.Broadcasts S6144x64
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S256_S256_0 : ∀ a, (![0] : Fin 1 → Nat) a + S256.size a ≤ S256.size a
  h_S256 : 0 < S256.numel
  shapeCasts_S256_S1x256 : S256.ShapeCasts S1x256
  broadcasts_S1x256_S6144x256 : S1x256.Broadcasts S6144x256
  inb_S6144x256_S6144x256_0_0 : ∀ a, (![0, 0] : Fin 2 → Nat) a + S6144x256.size a ≤ S6144x256.size a
  h_S6144x256 : 0 < S6144x256.numel
  shapeCasts_S442368x256_S8x55296x256 : S442368x256.ShapeCasts S8x55296x256
  gather_S8x55296x64_S221184x1_S8x221184x64_02_1_n_n_1_1_8164_wf : GatherDims.WF S8x55296x64 S221184x1 S8x221184x64 [0, 2] [1] [] [1] [] 1 ![8, 1, 64]
  scatter_S8x55296x64_S221184x1_S8x221184x64_02_1_1_1_wf : ScatterDims.WF S8x55296x64 S221184x1 S8x221184x64 [0, 2] [1] [1] 1
  scatter_S55296_S221184x1_S221184_n_0_0_1_wf : ScatterDims.WF S55296 S221184x1 S221184 [] [0] [0] 1
  dot_S6144x64_S64x256_S6144x256_1_0_0_1_n_n_wf : DotDims.WF S6144x64 S64x256 S6144x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6144x64.size a ≤ S442368x64.size a
  hwx0_0 : ∀ i : grid0.Coords, EltTy.bits .f32 = 32 ∨ (Rect.block (s := S442368x64) S6144x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6144x64.size a ≤ S442368x64.size a
  hwx0_1 : ∀ i : grid0.Coords, EltTy.bits .f32 = 32 ∨ (Rect.block (s := S442368x64) S6144x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6144x1.size a ≤ S442368x1.size a
  hwx0_2 : ∀ i : grid0.Coords, EltTy.bits .f32 = 32 ∨ (Rect.block (s := S442368x1) S6144x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x256.size a ≤ S64x256.size a
  hwx0_3 : ∀ i : grid0.Coords, EltTy.bits .f32 = 32 ∨ (Rect.block (s := S64x256) S64x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x256.size a ≤ S64x256.size a
  hwx0_5 : ∀ i : grid0.Coords, EltTy.bits .f32 = 32 ∨ (Rect.block (s := S64x256) S64x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S6144x256.size a ≤ S442368x256.size a
  hwx0_6 : ∀ i : grid0.Coords, EltTy.bits .f32 = 32 ∨ (Rect.block (s := S442368x256) S6144x256.size (cc0_transform_6 i) (hinb0_6 i)).WholeWords (EltTy.packing .f32)

variable [Facts₀]

def gather_S8x55296x64_S221184x1_S8x221184x64_02_1_n_n_1_1_8164 : GatherDims S8x55296x64 S221184x1 S8x221184x64 where
  offsetDims := [0, 2]
  collapsedSliceDims := [1]
  operandBatchingDims := []
  startIndicesBatchingDims := []
  startIndexMap := [1]
  indexVectorDim := 1
  sliceSizes := ![8, 1, 64]
  wf := gather_S8x55296x64_S221184x1_S8x221184x64_02_1_n_n_1_1_8164_wf
def scatter_S8x55296x64_S221184x1_S8x221184x64_02_1_1_1 : ScatterDims S8x55296x64 S221184x1 S8x221184x64 where
  updateWindowDims := [0, 2]
  insertedWindowDims := [1]
  scatterDimsToOperandDims := [1]
  indexVectorDim := 1
  wf := scatter_S8x55296x64_S221184x1_S8x221184x64_02_1_1_1_wf
def scatter_S55296_S221184x1_S221184_n_0_0_1 : ScatterDims S55296 S221184x1 S221184 where
  updateWindowDims := []
  insertedWindowDims := [0]
  scatterDimsToOperandDims := [0]
  indexVectorDim := 1
  wf := scatter_S55296_S221184x1_S221184_n_0_0_1_wf
def dot_S6144x64_S64x256_S6144x256_1_0_0_1_n_n : DotDims S6144x64 S64x256 S6144x256 where
  lhsContracting := [1]
  rhsContracting := [0]
  lhsNonContracting := [0]
  rhsNonContracting := [1]
  lhsBatch := []
  rhsBatch := []
  wf := dot_S6144x64_S64x256_S6144x256_1_0_0_1_n_n_wf

abbrev win0_0 : Pipeline.Window sig grid0 :=
  Pipeline.Window.ofSpec (Memref.whole main_v28) S6144x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S6144x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v32) S6144x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v33) S64x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v34) S64x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v35) S6144x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x55296x64 : Shape := ⟨3, ![8, 55296, 64]⟩
abbrev S221184 : Shape := ⟨1, ![221184]⟩
abbrev S256x64 : Shape := ⟨2, ![256, 64]⟩
abbrev S256 : Shape := ⟨1, ![256]⟩
abbrev S_ : Shape := ⟨0, ![]⟩
abbrev S221184x1 : Shape := ⟨2, ![221184, 1]⟩
abbrev S8x221184x64 : Shape := ⟨3, ![8, 221184, 64]⟩
abbrev S55296 : Shape := ⟨1, ![55296]⟩
abbrev S1x55296x1 : Shape := ⟨3, ![1, 55296, 1]⟩
abbrev S8x55296x256 : Shape := ⟨3, ![8, 55296, 256]⟩
abbrev S1x1x256 : Shape := ⟨3, ![1, 1, 256]⟩

abbrev nBuf : Space → Nat
  | .hbm => 54
  | .vmem => 0
  | .smem => 0
  | _ => 0

abbrev bufTy : (tb : Table) → Fin (tcTables nBuf tb) → BufTy
  | .hbm, ⟨0, _⟩ => ⟨S8x55296x64, .f32⟩
  | .hbm, ⟨1, _⟩ => ⟨S221184, .i32⟩
  | .hbm, ⟨2, _⟩ => ⟨S221184, .i32⟩
  | .hbm, ⟨3, _⟩ => ⟨S256x64, .f32⟩
  | .hbm, ⟨4, _⟩ => ⟨S256, .f32⟩
  | .hbm, ⟨5, _⟩ => ⟨S256x64, .f32⟩
  | .hbm, ⟨6, _⟩ => ⟨S_, .i32⟩
  | .hbm, ⟨7, _⟩ => ⟨S221184, .i32⟩
  | .hbm, ⟨8, _⟩ => ⟨S221184, .i1⟩
  | .hbm, ⟨9, _⟩ => ⟨S_, .i32⟩
  | .hbm, ⟨10, _⟩ => ⟨S221184, .i32⟩
  | .hbm, ⟨11, _⟩ => ⟨S221184, .i32⟩
  | .hbm, ⟨12, _⟩ => ⟨S221184, .i32⟩
  | .hbm, ⟨13, _⟩ => ⟨S221184x1, .i32⟩
  | .hbm, ⟨14, _⟩ => ⟨S8x221184x64, .f32⟩
  | .hbm, ⟨15, _⟩ => ⟨S_, .f32⟩
  | .hbm, ⟨16, _⟩ => ⟨S8x55296x64, .f32⟩
  | .hbm, ⟨17, _⟩ => ⟨S_, .i32⟩
  | .hbm, ⟨18, _⟩ => ⟨S221184, .i32⟩
  | .hbm, ⟨19, _⟩ => ⟨S221184, .i1⟩
  | .hbm, ⟨20, _⟩ => ⟨S_, .i32⟩
  | .hbm, ⟨21, _⟩ => ⟨S221184, .i32⟩
  | .hbm, ⟨22, _⟩ => ⟨S221184, .i32⟩
  | .hbm, ⟨23, _⟩ => ⟨S221184, .i32⟩
  | .hbm, ⟨24, _⟩ => ⟨S221184x1, .i32⟩
  | .hbm, ⟨25, _⟩ => ⟨S8x55296x64, .f32⟩
  | .hbm, ⟨26, _⟩ => ⟨S_, .f32⟩
  | .hbm, ⟨27, _⟩ => ⟨S55296, .f32⟩
  | .hbm, ⟨28, _⟩ => ⟨S_, .i32⟩
  | .hbm, ⟨29, _⟩ => ⟨S221184, .i32⟩
  | .hbm, ⟨30, _⟩ => ⟨S221184, .i1⟩
  | .hbm, ⟨31, _⟩ => ⟨S_, .i32⟩
  | .hbm, ⟨32, _⟩ => ⟨S221184, .i32⟩
  | .hbm, ⟨33, _⟩ => ⟨S221184, .i32⟩
  | .hbm, ⟨34, _⟩ => ⟨S221184, .i32⟩
  | .hbm, ⟨35, _⟩ => ⟨S221184x1, .i32⟩
  | .hbm, ⟨36, _⟩ => ⟨S_, .f32⟩
  | .hbm, ⟨37, _⟩ => ⟨S221184, .f32⟩
  | .hbm, ⟨38, _⟩ => ⟨S55296, .f32⟩
  | .hbm, ⟨39, _⟩ => ⟨S_, .f32⟩
  | .hbm, ⟨40, _⟩ => ⟨S55296, .f32⟩
  | .hbm, ⟨41, _⟩ => ⟨S55296, .f32⟩
  | .hbm, ⟨42, _⟩ => ⟨S1x55296x1, .f32⟩
  | .hbm, ⟨43, _⟩ => ⟨S8x55296x64, .f32⟩
  | .hbm, ⟨44, _⟩ => ⟨S8x55296x64, .f32⟩
  | .hbm, ⟨45, _⟩ => ⟨S8x55296x256, .f32⟩
  | .hbm, ⟨46, _⟩ => ⟨S1x1x256, .f32⟩
  | .hbm, ⟨47, _⟩ => ⟨S8x55296x256, .f32⟩
  | .hbm, ⟨48, _⟩ => ⟨S8x55296x256, .f32⟩
  | .hbm, ⟨49, _⟩ => ⟨S8x55296x256, .f32⟩
  | .hbm, ⟨50, _⟩ => ⟨S8x55296x256, .f32⟩
  | .hbm, ⟨51, _⟩ => ⟨S_, .f32⟩
  | .hbm, ⟨52, _⟩ => ⟨S8x55296x256, .f32⟩
  | .hbm, ⟨53, _⟩ => ⟨S8x55296x256, .f32⟩
  | _, _ => ⟨S8x55296x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_c_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_call0_cst : Ref sig .tc := ⟨.hbm, 51, rfl⟩
abbrev main_call0_v0 : Ref sig .tc := ⟨.hbm, 52, rfl⟩
abbrev main_v35 : Ref sig .tc := ⟨.hbm, 53, rfl⟩

abbrev nD : Nat := 1
abbrev τ : Topo := Topo.v7x

variable {F : FTy → Type} [FloatOps F]

class Facts₀ : Prop where
  bcast_S_S221184 : S_.BroadcastsInDim S221184 (![] : Fin 0 → Fin S221184.rank)
  bcast_S221184_S221184x1_0 : S221184.BroadcastsInDim S221184x1 (![0] : Fin 1 → Fin S221184x1.rank)
  bcast_S_S8x55296x64 : S_.BroadcastsInDim S8x55296x64 (![] : Fin 0 → Fin S8x55296x64.rank)
  bcast_S_S55296 : S_.BroadcastsInDim S55296 (![] : Fin 0 → Fin S55296.rank)
  bcast_S55296_S1x55296x1_1 : S55296.BroadcastsInDim S1x55296x1 (![1] : Fin 1 → Fin S1x55296x1.rank)
  bcast_S1x55296x1_S8x55296x64_0_1_2 : S1x55296x1.BroadcastsInDim S8x55296x64 (![0, 1, 2] : Fin 3 → Fin S8x55296x64.rank)
  bcast_S256_S1x1x256_2 : S256.BroadcastsInDim S1x1x256 (![2] : Fin 1 → Fin S1x1x256.rank)
  bcast_S1x1x256_S8x55296x256_0_1_2 : S1x1x256.BroadcastsInDim S8x55296x256 (![0, 1, 2] : Fin 3 → Fin S8x55296x256.rank)
  bcast_S_S8x55296x256 : S_.BroadcastsInDim S8x55296x256 (![] : Fin 0 → Fin S8x55296x256.rank)
  gather_S8x55296x64_S221184x1_S8x221184x64_02_1_n_n_1_1_8164_wf : GatherDims.WF S8x55296x64 S221184x1 S8x221184x64 [0, 2] [1] [] [1] [] 1 ![8, 1, 64]
  scatter_S8x55296x64_S221184x1_S8x221184x64_02_1_1_1_wf : ScatterDims.WF S8x55296x64 S221184x1 S8x221184x64 [0, 2] [1] [1] 1
  scatter_S55296_S221184x1_S221184_n_0_0_1_wf : ScatterDims.WF S55296 S221184x1 S221184 [] [0] [0] 1
  dot_S8x55296x64_S256x64_S8x55296x256_2_1_01_0_n_n_wf : DotDims.WF S8x55296x64 S256x64 S8x55296x256 [2] [1] [0, 1] [0] [] []

variable [Facts₀]

def gather_S8x55296x64_S221184x1_S8x221184x64_02_1_n_n_1_1_8164 : GatherDims S8x55296x64 S221184x1 S8x221184x64 where
  offsetDims := [0, 2]
  collapsedSliceDims := [1]
  operandBatchingDims := []
  startIndicesBatchingDims := []
  startIndexMap := [1]
  indexVectorDim := 1
  sliceSizes := ![8, 1, 64]
  wf := gather_S8x55296x64_S221184x1_S8x221184x64_02_1_n_n_1_1_8164_wf
def scatter_S8x55296x64_S221184x1_S8x221184x64_02_1_1_1 : ScatterDims S8x55296x64 S221184x1 S8x221184x64 where
  updateWindowDims := [0, 2]
  insertedWindowDims := [1]
  scatterDimsToOperandDims := [1]
  indexVectorDim := 1
  wf := scatter_S8x55296x64_S221184x1_S8x221184x64_02_1_1_1_wf
def scatter_S55296_S221184x1_S221184_n_0_0_1 : ScatterDims S55296 S221184x1 S221184 where
  updateWindowDims := []
  insertedWindowDims := [0]
  scatterDimsToOperandDims := [0]
  indexVectorDim := 1
  wf := scatter_S55296_S221184x1_S221184_n_0_0_1_wf
def dot_S8x55296x64_S256x64_S8x55296x256_2_1_01_0_n_n : DotDims S8x55296x64 S256x64 S8x55296x256 where
  lhsContracting := [2]
  rhsContracting := [1]
  lhsNonContracting := [0, 1]
  rhsNonContracting := [0]
  lhsBatch := []
  rhsBatch := []
  wf := dot_S8x55296x64_S256x64_S8x55296x256_2_1_01_0_n_n_wf

class Facts : Prop extends Facts₀ where

variable [Facts]
-- ==== Proof.LibPlainProduct.lean ====
/-
  A plain matrix product into a zero accumulator, read at one entry.

  For a matrix `l` of shape `[M, K]` and a matrix `r` of shape `[K, N]`, contracted over `l`'s second axis and `r`'s first,
  the product's entry `(p, c)` on the extended reals is `∑ k, l[p, k] · r[k, c]`: the accumulator contributes the real `0`,
  the contraction index has a single axis of extent `K` and is traded for its one coordinate `k`, and the operand indices
  at the output index `(p, c)` and contraction coordinate `k` are `(p, k)` and `(k, c)`.

  The dimension numbers enter only through six facts, which a caller proves for its own record: the contraction shape
  has rank one (`hr`) and extent `K` (`hs`), and the four coordinates of the two operand indices (`hl0`, `hl1`, `hr0`,
  `hr1`). The operands' float formats are arbitrary.
-/
import Idealize.ShloMosaic.Lib.ValueIdx
import Idealize.ShloMosaic.PureOps.Ideal.Laws

noncomputable section

namespace Cert.PlainProduct

open Idealize.ShloMosaic Idealize.ShloMosaic.ValueIdx

/-- Entry `(p, c)` of an `[M, K]` by `[K, N]` product into the zero accumulator is `∑ k, l[p, k] · r[k, c]`, for any dimension
    numbers `D` whose contraction has the one axis of extent `K` and whose operand indices read `(p, k)` and `(k, c)`. -/
theorem matmul_zero_entry {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q (0 : Fin 2)).val = (j (0 : Fin 2)).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (q ⟨0, by omega⟩).val)
    (hr1 : ∀ (j : (⟨2, ![M, N]⟩ : Shape).Idx) (q : D.contr.Idx), (D.rhsIdx j q (1 : Fin 2)).val = (j (1 : Fin 2)).val)
    {φ₁ φ₂ : FTy} (l : FVec Ideal ⟨2, ![M, K]⟩ φ₁) (r : FVec Ideal ⟨2, ![K, N]⟩ φ₂) (p : Fin M) (c : Fin N) :
    FloatOps.matmul D none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k :=
    funext fun a => Fin.ext (by
      match a with
      | ⟨0, _⟩ => exact hl0 (ix2 p c) _
      | ⟨1, _⟩ => exact (hl1 (ix2 p c) _).trans hk)
  have er : D.rhsIdx (ix2 p c) ((contrEquiv1 D K hr hs).symm k) = ix2 k c :=
    funext fun a => Fin.ext (by
      match a with
      | ⟨0, _⟩ => exact (hr0 (ix2 p c) _).trans hk
      | ⟨1, _⟩ => exact hr1 (ix2 p c) _)
  rw [el, er]

end Cert.PlainProduct

end
-- ==== Proof.LibColumnLayout.lean ====
/-
  A vector laid out as a column, and a column broadcast across many columns.

  Reading a reshape or a broadcast at an index: an `[a]` array cast to `[a, 1]` holds at (i, 0) its entry i, and an
  `[a, 1]` column broadcast to `[a, b]` holds at (p, c) the column's entry p, whatever the column c. These are the forms a
  sum kept as a column (one number per row) takes when it is added back to a matrix row by row.
-/
import Idealize.ShloMosaic.Lib.Pipeline.Value
import Idealize.ShloMosaic.Lib.ValueIdx

namespace Cert.ColumnLayout

open Idealize.ShloMosaic Idealize.ShloMosaic.ValueIdx

variable {α : Type}

/-- An `[a]` array cast to `[a, 1]` reads, at `(i, u)`, the operand at `i`, whatever the unit coordinate `u`: both
    sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`: the row coordinate is kept
    (or is 0 when there is one row), the unit axis is read at 0. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.RowBlock.lean ====
/-
  One row tile through the kernel body, read at one entry.

  The body receives a tile of 6144 rows: the neighbour sums `s` and the node features `x` (each 6144 × 64), the per-row
  reciprocal degree `r` as a column (6144 × 1), the two weight matrices already transposed (64 × 256) and the bias
  (256). It scales each row of `s` by that row's entry of `r`, multiplies both 6144 × 64 tiles into 6144 × 256 (the
  roundings to bf16 on the way into the products are the identity on the extended reals, and each product starts from a
  zero accumulator), adds the bias to every row, adds the two products and clamps below at zero. Its one store covers the
  whole output tile, so the tile after the body at row `p`, column `q` is

    `max ((∑ₖ (s[p,k] · r[p,0]) · Wl[k,q]) + bias[q] + ∑ₖ x[p,k] · Wr[k,q]) 0`.
-/
import proofs.«159819_j4063039062110_2_alg».proof.Proof.Gen.KernelIdeal.Frame
import proofs.«159819_j4063039062110_2_alg».proof.Proof.LibPlainProduct
import proofs.«159819_j4063039062110_2_alg».proof.Proof.LibColumnLayout
import Idealize.ShloMosaic.Lib.ValueLayout
import Idealize.ShloMosaic.Lib.Pipeline.Value

noncomputable section

namespace Cert.KernelIdeal.RowBlock

open Cert.KernelIdeal Cert.KernelIdeal.Gen Idealize.ShloMosaic Idealize.ShloMosaic.TcCoe Idealize.ShloMosaic.ValueIdx

/-- The tile products' dimension numbers, named. -/
abbrev tileDot : DotDims S6144x64 S64x256 S6144x256 := dot_S6144x64_S64x256_S6144x256_1_0_0_1_n_n

/-- A 6144 × 64 tile times a 64 × 256 matrix into the zero accumulator, at entry `(p, q)`: the plain sum over the 64
    contracted positions. The left index keeps the output row and takes the contracted position as its column, the
    right index takes it as its row and keeps the output column. -/
theorem product_entry {φ₁ φ₂ : FTy} (l : FVec Ideal S6144x64 φ₁) (r : FVec Ideal S64x256 φ₂) (p : Fin 6144) (q : Fin 256) :
    matmul tileDot none l r (constant (F := Ideal) S6144x256 .f32 0x00000000#32) (ix2 p q)
      = ∑ k : Fin 64, l (ix2 p k) * r (ix2 k q) :=
  Cert.PlainProduct.matmul_zero_entry tileDot rfl rfl
    (fun j q => by
      unfold DotDims.lhsIdx
      rw [dif_neg (show ¬(0 : Fin S6144x64.rank) ∈ tileDot.lhsBatch by decide),
        dif_pos (show (0 : Fin S6144x64.rank) ∈ tileDot.lhsNonContracting by decide)]
      rfl)
    (fun j q => tileDot.lhsIdx_val_of_single rfl j q)
    (fun j q => tileDot.rhsIdx_val_of_single rfl j q)
    (fun j q => by
      unfold DotDims.rhsIdx
      rw [dif_neg (show ¬(1 : Fin S64x256.rank) ∈ tileDot.rhsBatch by decide),
        dif_pos (show (1 : Fin S64x256.rank) ∈ tileDot.rhsNonContracting by decide)]
      rfl)
    l r p q

/-- The bias, laid out as one row and repeated down the tile, reads at `(p, q)` its entry `q`. -/
theorem bias_entry (x4 : Vec Ideal S256 .f32) (p : Fin 6144) (q : Fin 256) :
    broadcastTo S6144x256 (shapeCast S1x256 x4 shapeCasts_S256_S1x256) broadcasts_S1x256_S6144x256 (ix2 p q) = x4 (ix1 q) := by
  rw [broadcastTo_1b_ab_apply, shapeCast_a_1a_apply]

/-- The reciprocal-degree column, repeated across the 64 features, reads at `(p, k)` the column's entry `p`. -/
theorem column_entry (x2 : Vec Ideal S6144x1 .f32) (p : Fin 6144) (k : Fin 64) :
    broadcastTo S6144x64 (shapeCast S6144x1 x2 shapeCasts_S6144x1_S6144x1) broadcasts_S6144x1_S6144x64 (ix2 p k)
      = x2 (ix2 p (0 : Fin 1)) := by
  rw [Cert.ColumnLayout.broadcastTo_a1_ab_apply, shapeCast_self]

/-- The value the body stores, at entry `(p, q)`. -/
theorem stored_entry (x0 x1 : Vec Ideal S6144x64 .f32) (x2 : Vec Ideal S6144x1 .f32) (x3 : Vec Ideal S64x256 .f32)
    (x4 : Vec Ideal S256 .f32) (x5 : Vec Ideal S64x256 .f32) (p : Fin 6144) (q : Fin 256) :
    k0_pay1 (F := Ideal) x0 x1 x2 x3 x5 x4 (ix2 p q)
      = max (((∑ k : Fin 64, (x0 (ix2 p k) * x2 (ix2 p (0 : Fin 1))) * x3 (ix2 k q)) + x4 (ix1 q))
          + ∑ k : Fin 64, x1 (ix2 p k) * x5 (ix2 k q)) (Ideal.ofBits .f32 0x00000000#32) := by
  unfold k0_pay1
  refine (maximumf_apply _ _ _).trans (congrArg₂ max ?_ rfl)
  refine (addf_apply _ _ _).trans (congrArg₂ (· + ·) ?_ ?_)
  · refine (addf_apply _ _ _).trans (congrArg₂ (· + ·) ?_ (bias_entry x4 p q))
    refine (product_entry _ _ p q).trans (Finset.sum_congr rfl fun k _ => congrArg₂ (· * ·) ?_ ?_)
    · refine (truncf_apply (ψ := .bf16) _ bitsLt_bf16_f32 _).trans ((mulf_apply _ _ _).trans (congrArg₂ (· * ·) ?_ (column_entry x2 p k)))
      rw [shapeCast_self]
    · refine (truncf_apply (ψ := .bf16) _ bitsLt_bf16_f32 _).trans ?_
      rw [shapeCast_self]
  · refine (product_entry _ _ p q).trans (Finset.sum_congr rfl fun k _ => congrArg₂ (· * ·) ?_ ?_)
    · refine (truncf_apply (ψ := .bf16) _ bitsLt_bf16_f32 _).trans ?_
      rw [shapeCast_self]
    · refine (truncf_apply (ψ := .bf16) _ bitsLt_bf16_f32 _).trans ?_
      rw [shapeCast_self]

end Cert.KernelIdeal.RowBlock

end
-- ==== Proof.RowTiles.lean ====
/-
  From row tiles to the whole flat array.

  The region runs the body once per grid point `t = 0 … 71`; point `t` reads rows `6144·t … 6144·t + 6143` of the sums,
  the features and the reciprocal-degree column, reads the two weight matrices and the bias whole, and writes rows
  `6144·t … 6144·t + 6143` of the 442368 × 256 output. Each output row depends only on the same row of the row arrays,
  so what point `t` writes back is tile `t` of ONE function of the whole arrays (`rows`); the 72 tiles cover all
  442368 = 72 · 6144 rows (row `r` lies in tile `r / 6144`), so after the region the output array is that function.
-/
import proofs.«159819_j4063039062110_2_alg».proof.Proof.RowBlock
import proofs.«159819_j4063039062110_2_alg».proof.Proof.Gen.KernelIdeal.Points
import Idealize.ShloMosaic.Lib.Pipeline.Value

noncomputable section

namespace Cert.KernelIdeal.RowTiles

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ)

theorem origin2 : (![0, 0] : Fin 2 → Nat) = fun _ => 0 := funext fun a => by fin_cases a <;> rfl
theorem origin1 : (![0] : Fin 1 → Nat) = fun _ => 0 := funext fun a => by fin_cases a <;> rfl

/-- Row `r`, column `q` of the flat result, from the row arrays `A0` (sums), `A1` (features), `A2` (reciprocal degrees),
    the transposed weights `A3`, `A5` and the bias `A4`. -/
def rowAt (A0 A1 : S442368x64.Idx → EReal) (A2 : S442368x1.Idx → EReal) (A3 : S64x256.Idx → EReal)
    (A4 : S256.Idx → EReal) (A5 : S64x256.Idx → EReal) (r : Fin 442368) (q : Fin 256) : EReal :=
  max (((∑ k : Fin 64, (A0 (ix2 r k) * A2 (ix2 r (0 : Fin 1))) * A3 (ix2 k q)) + A4 (ix1 q))
      + ∑ k : Fin 64, A1 (ix2 r k) * A5 (ix2 k q)) (Ideal.ofBits .f32 0x00000000#32)

/-- The flat result as an array of shape `[442368, 256]`. -/
def rows (A0 A1 : S442368x64.Idx → EReal) (A2 : S442368x1.Idx → EReal) (A3 : S64x256.Idx → EReal)
    (A4 : S256.Idx → EReal) (A5 : S64x256.Idx → EReal) : S442368x256.Idx → EReal :=
  fun i => rowAt A0 A1 A2 A3 A4 A5 (i 0) (i 1)

/-- The printed index maps over the grid: the row windows and the output sit at block `t` of the row axis, the weights
    and the bias at block 0. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem point_lt (t : Fin cfg0.N) : t.val < 72 := lt_of_lt_of_eq t.isLt N_0

/-- Row `p` of point `t`'s tile of the sums is row `6144·t + p` of the array. -/
theorem sums_tile (c : Dev nD) (t : Fin cfg0.N) (p : Fin 6144) (k : Fin 64) (r : Fin 442368)
    (hr : r.val = t.val * 6144 + p.val) : iblk m c 0 t (ix2 p k) = V m c main_v28 (ix2 r k) := by
  show V m c main_v28 (((cfg0.win 0).blk t).view.emb (ix2 p k)) = V m c main_v28 (ix2 r k)
  have h : ((cfg0.win 0).blk t).view.emb (ix2 p k) = ix2 r k := by
    obtain ⟨e0, e1, -⟩ := block_index t
    funext a; apply Fin.ext
    match a with
    | ⟨0, _⟩ => show win0_0.index t (0 : Fin 2) * 6144 + 1 * p.val = r.val; omega
    | ⟨1, _⟩ => show win0_0.index t (1 : Fin 2) * 64 + 1 * k.val = k.val; omega
  rw [h]

/-- The same for the node features. -/
theorem feature_tile (c : Dev nD) (t : Fin cfg0.N) (p : Fin 6144) (k : Fin 64) (r : Fin 442368)
    (hr : r.val = t.val * 6144 + p.val) : iblk m c 1 t (ix2 p k) = V m c main_v29 (ix2 r k) := by
  show V m c main_v29 (((cfg0.win 1).blk t).view.emb (ix2 p k)) = V m c main_v29 (ix2 r k)
  have h : ((cfg0.win 1).blk t).view.emb (ix2 p k) = ix2 r k := by
    obtain ⟨-, -, e0, e1, -⟩ := block_index t
    funext a; apply Fin.ext
    match a with
    | ⟨0, _⟩ => show win0_1.index t (0 : Fin 2) * 6144 + 1 * p.val = r.val; omega
    | ⟨1, _⟩ => show win0_1.index t (1 : Fin 2) * 64 + 1 * k.val = k.val; omega
  rw [h]

/-- The same for the reciprocal-degree column. -/
theorem reciprocal_tile (c : Dev nD) (t : Fin cfg0.N) (p : Fin 6144) (r : Fin 442368)
    (hr : r.val = t.val * 6144 + p.val) : iblk m c 2 t (ix2 p (0 : Fin 1)) = V m c main_v32 (ix2 r (0 : Fin 1)) := by
  show V m c main_v32 (((cfg0.win 2).blk t).view.emb (ix2 p (0 : Fin 1))) = V m c main_v32 (ix2 r (0 : Fin 1))
  have h : ((cfg0.win 2).blk t).view.emb (ix2 p (0 : Fin 1)) = ix2 r (0 : Fin 1) := by
    obtain ⟨-, -, -, -, e0, e1, -⟩ := block_index t
    funext a; apply Fin.ext
    match a with
    | ⟨0, _⟩ => show win0_2.index t (0 : Fin 2) * 6144 + 1 * p.val = r.val; omega
    | ⟨1, _⟩ => show win0_2.index t (1 : Fin 2) * 1 + 1 * 0 = 0; omega
  rw [h]

/-- Every point's tile of the transposed neighbour weights is the whole matrix. -/
theorem neighbour_weights_tile (c : Dev nD) (t : Fin cfg0.N) (k : Fin 64) (q : Fin 256) :
    iblk m c 3 t (ix2 k q) = V m c main_v33 (ix2 k q) := by
  show V m c main_v33 (((cfg0.win 3).blk t).view.emb (ix2 k q)) = V m c main_v33 (ix2 k q)
  have h : ((cfg0.win 3).blk t).view.emb (ix2 k q) = ix2 k q := by
    obtain ⟨-, -, -, -, -, -, e0, e1, -⟩ := block_index t
    funext a; apply Fin.ext
    match a with
    | ⟨0, _⟩ => show win0_3.index t (0 : Fin 2) * 64 + 1 * k.val = k.val; omega
    | ⟨1, _⟩ => show win0_3.index t (1 : Fin 2) * 256 + 1 * q.val = q.val; omega
  rw [h]

/-- Every point's tile of the bias is the whole vector. -/
theorem bias_tile (c : Dev nD) (t : Fin cfg0.N) (q : Fin 256) :
    iblk m c 4 t (ix1 q) = V m c main_arg4 (ix1 q) := by
  show V m c main_arg4 (((cfg0.win 4).blk t).view.emb (ix1 q)) = V m c main_arg4 (ix1 q)
  have h : ((cfg0.win 4).blk t).view.emb (ix1 q) = ix1 q := by
    obtain ⟨-, -, -, -, -, -, -, -, e0, -⟩ := block_index t
    funext a; apply Fin.ext
    match a with
    | ⟨0, _⟩ => show win0_4.index t (0 : Fin 1) * 256 + 1 * q.val = q.val; omega
  rw [h]

/-- Every point's tile of the transposed root weights is the whole matrix. -/
theorem root_weights_tile (c : Dev nD) (t : Fin cfg0.N) (k : Fin 64) (q : Fin 256) :
    iblk m c 5 t (ix2 k q) = V m c main_v34 (ix2 k q) := by
  show V m c main_v34 (((cfg0.win 5).blk t).view.emb (ix2 k q)) = V m c main_v34 (ix2 k q)
  have h : ((cfg0.win 5).blk t).view.emb (ix2 k q) = ix2 k q := by
    obtain ⟨-, -, -, -, -, -, -, -, -, e0, e1, -⟩ := block_index t
    funext a; apply Fin.ext
    match a with
    | ⟨0, _⟩ => show win0_5.index t (0 : Fin 2) * 64 + 1 * k.val = k.val; omega
    | ⟨1, _⟩ => show win0_5.index t (1 : Fin 2) * 256 + 1 * q.val = q.val; omega
  rw [h]

/-- Row `p`, column `q` of point `t`'s output tile is row `6144·t + p`, column `q` of the output array. -/
theorem output_tile (t : Fin cfg0.N) (p : Fin 6144) (q : Fin 256) (r : Fin 442368)
    (hr : r.val = t.val * 6144 + p.val) : ((cfg0.win 6).blk t).view.emb (ix2 p q) = ix2 r q := by
  obtain ⟨-, -, -, -, -, -, -, -, -, -, -, e0, e1⟩ := block_index t
  funext a; apply Fin.ext
  match a with
  | ⟨0, _⟩ => show win0_6.index t (0 : Fin 2) * 6144 + 1 * p.val = r.val; omega
  | ⟨1, _⟩ => show win0_6.index t (1 : Fin 2) * 256 + 1 * q.val = q.val; omega

/-- WHAT POINT `t` WRITES BACK is tile `t` of `rows` of the arrays as the region finds them. -/
theorem tile_written (c : Dev nD) (t : Fin cfg0.N) :
    (dats m 0 c).flushed 6 t = ((cfg0.win 6).blk t).view.read (Elt Ideal)
      (rows (V m c main_v28) (V m c main_v29) (V m c main_v32) (V m c main_v33) (V m c main_arg4) (V m c main_v34)) := by
  show (cfg0.win 6).cut (grid0.coords t) ((dats m 0 c).after 6 t) = _
  rw [after0_6]
  unfold out0_6
  rw [View.canon_unit_zero origin2]
  simp only [View.ld_unit_zero (S := S6144x64) origin2, View.ld_unit_zero (S := S6144x1) origin2,
    View.ld_unit_zero (S := S64x256) origin2, View.ld_unit_zero (S := S256) origin1]
  funext j
  obtain ⟨p, q, rfl⟩ : ∃ (p : Fin 6144) (q : Fin 256), j = ix2 p q := ⟨j 0, j 1, eq_ix2 j⟩
  have ht := point_lt t
  have hp : p.val < 6144 := p.isLt
  obtain ⟨r, hr⟩ : ∃ r : Fin 442368, r.val = t.val * 6144 + p.val := ⟨⟨t.val * 6144 + p.val, by omega⟩, rfl⟩
  show k0_pay1 (iblk m c 0 t) (iblk m c 1 t) (iblk m c 2 t) (iblk m c 3 t) (iblk m c 5 t) (iblk m c 4 t) (ix2 p q)
    = rows (V m c main_v28) (V m c main_v29) (V m c main_v32) (V m c main_v33) (V m c main_arg4) (V m c main_v34)
        (((cfg0.win 6).blk t).view.emb (ix2 p q))
  rw [output_tile t p q r hr,
    Cert.KernelIdeal.RowBlock.stored_entry (iblk m c 0 t) (iblk m c 1 t) (iblk m c 2 t) (iblk m c 3 t) (iblk m c 4 t) (iblk m c 5 t) p q]
  show _ = rowAt (V m c main_v28) (V m c main_v29) (V m c main_v32) (V m c main_v33) (V m c main_arg4) (V m c main_v34) r q
  unfold rowAt
  rw [reciprocal_tile m c t p r hr, bias_tile m c t q]
  refine congrArg₂ max (congrArg₂ (· + ·) (congrArg₂ (· + ·) (Finset.sum_congr rfl fun k _ => ?_) rfl)
    (Finset.sum_congr rfl fun k _ => ?_)) rfl
  · rw [sums_tile m c t p k r hr, neighbour_weights_tile m c t k q]
  · rw [feature_tile m c t p k r hr, root_weights_tile m c t k q]

/-- An index of the output array is in point `t`'s tile iff each coordinate is in the tile's range on its axis. -/
theorem mem_tile (t : Fin cfg0.N) (i : S442368x256.Idx) :
    i ∈ ((cfg0.win 6).blk t).view.set ↔ ∀ a : Fin 2, win0_6.index t a * S6144x256.size a ≤ (i a).val
      ∧ (i a).val < win0_6.index t a * S6144x256.size a + S6144x256.size a := by
  show i ∈ ((View.whole main_v35).slice (win0_6.rect t)).set ↔ _
  rw [View.set_slice_whole, Rect.mem_set_unit]
  exact Iff.rfl

/-- Every row of the output array lies in the tile of point `r / 6144`. -/
theorem tiles_cover (i : S442368x256.Idx) :
    ∃ t : Fin cfg0.N, (cfg0.win 6).flush t = true ∧ i ∈ ((cfg0.win 6).blk t).view.set := by
  have hi0 : (i 0).val < 442368 := (i 0).isLt
  have hi1 : (i 1).val < 256 := (i 1).isLt
  obtain ⟨t, ht⟩ : ∃ t : Fin cfg0.N, t.val = (i 0).val / 6144 :=
    ⟨⟨(i 0).val / 6144, by show (i 0).val / 6144 < grid0.N; rw [N_0]; omega⟩, rfl⟩
  refine ⟨t, flush0_6 t, ?_⟩
  rw [mem_tile]
  obtain ⟨-, -, -, -, -, -, -, -, -, -, -, e0, e1⟩ := block_index t
  intro a
  match a with
  | ⟨0, _⟩ =>
    show win0_6.index t (0 : Fin 2) * 6144 ≤ (i 0).val ∧ (i 0).val < win0_6.index t (0 : Fin 2) * 6144 + 6144
    omega
  | ⟨1, _⟩ =>
    show win0_6.index t (1 : Fin 2) * 256 ≤ (i 1).val ∧ (i 1).val < win0_6.index t (1 : Fin 2) * 256 + 256
    omega

/-- THE OUTPUT ARRAY after the region: `rows` of the arrays the region was launched on. -/
theorem rows_written (c : Dev nD) :
    (dats m 0 c).arrAt 6 cfg0.N
      = rows (V m c main_v28) (V m c main_v29) (V m c main_v32) (V m c main_v33) (V m c main_arg4) (V m c main_v34) :=
  (dats m 0 c).arrAt_eq_of_cover 6 _ (fun t _ => tile_written m c t) tiles_cover

end Cert.KernelIdeal.RowTiles

end
-- ==== Proof.FoundRows.lean ====
/-
  The two row arrays the region is launched on.

  Before the region the host program gathers each edge's source features, adds them into the edge's destination node
  (the neighbour sums, an array [8, 55296, 64]) and lays the sums and the node features out as 442368 = 8 · 55296 rows of
  64. The gather and the scatter-add are, operation for operation, the ones the reference program performs, so the sums
  are named here by the reference's own stage and never opened.
-/
import proofs.«159819_j4063039062110_2_alg».proof.Proof.Gen.KernelIdeal.Frame
import proofs.«159819_j4063039062110_2_alg».proof.Proof.Gen.ReferenceIdeal.Read
import Idealize.ShloMosaic.Lib.StableHlo.Run

noncomputable section

namespace Cert.KernelIdeal.Found

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

set_option maxHeartbeats 2000000 in
/-- The first window's array: the neighbour sums, as the reference computes them, as 442368 rows. -/
theorem sums_rows (c : Dev nD) :
    (V m c main_v28 : S442368x64.Idx → EReal)
      = shapeCast S442368x64 (Cert.ReferenceIdeal.Read.val_main_v14 (F := Ideal) (m ((c : Thread nD τ).loc main_arg0))
          (m ((c : Thread nD τ).loc main_arg1)) (m ((c : Thread nD τ).loc main_arg2))) shapeCasts_S8x55296x64_S442368x64 := by
  show StableHlo.after hostOps0 (fun b => m (c, b)) (Proc.devRef .tc main_v28) = _
  after_results_simp <;> rfl

set_option maxHeartbeats 2000000 in
/-- The second window's array: the node features as 442368 rows. -/
theorem feature_rows (c : Dev nD) :
    (V m c main_v29 : S442368x64.Idx → EReal)
      = shapeCast S442368x64 (m ((c : Thread nD τ).loc main_arg0)) shapeCasts_S8x55296x64_S442368x64 := by
  show StableHlo.after hostOps0 (fun b => m (c, b)) (Proc.devRef .tc main_v29) = _
  after_results_simp <;> rfl

end Cert.KernelIdeal.Found

end
-- ==== Proof.FoundScale.lean ====
/-
  The reciprocal-degree column and the transposed weights the region is launched on.

  The host program counts each node's in-degree (one per edge into it, the reference's own scatter-add), clamps it
  below at one, takes `1 / ·`, repeats that per-node number over the 8 batches and lays it out as a column of 442368
  rows; and it transposes the two 256 × 64 weight matrices to 64 × 256. The clamped degree is named by the reference's
  stage and never opened.
-/
import proofs.«159819_j4063039062110_2_alg».proof.Proof.Gen.KernelIdeal.Frame
import proofs.«159819_j4063039062110_2_alg».proof.Proof.Gen.ReferenceIdeal.Read
import Idealize.ShloMosaic.Lib.StableHlo.Run

noncomputable section

namespace Cert.KernelIdeal.Found

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

set_option maxHeartbeats 2000000 in
/-- The third window's array: `1 / max(degree, 1)` per node, repeated over the batches, as a 442368 × 1 column. -/
theorem reciprocal_rows (c : Dev nD) :
    (V m c main_v32 : S442368x1.Idx → EReal)
      = shapeCast S442368x1 (broadcastInDim S8x55296x1 ![0, 1, 2] bcast_S1x55296x1_S8x55296x1_0_1_2
          (broadcastInDim S1x55296x1 ![1] bcast_S55296_S1x55296x1_1
            (Host.divf (F := Ideal) (broadcastInDim S55296 ![] bcast_S_S55296 (constant (F := Ideal) S_ .f32 0x3F800000#32))
              (Cert.ReferenceIdeal.Read.val_main_v25 (F := Ideal) (m ((c : Thread nD τ).loc main_arg2))))))
          shapeCasts_S8x55296x1_S442368x1 := by
  show StableHlo.after hostOps0 (fun b => m (c, b)) (Proc.devRef .tc main_v32) = _
  after_results_simp <;> rfl

set_option maxHeartbeats 2000000 in
/-- The fourth window's array: the neighbour weights, transposed. -/
theorem neighbour_weights (c : Dev nD) :
    (V m c main_v33 : S64x256.Idx → EReal)
      = transpose S64x256 [1, 0] (m ((c : Thread nD τ).loc main_arg3)) transposes_S256x64_S64x256_1_0 := by
  show StableHlo.after hostOps0 (fun b => m (c, b)) (Proc.devRef .tc main_v33) = _
  after_results_simp <;> rfl

set_option maxHeartbeats 2000000 in
/-- The sixth window's array: the root weights, transposed. -/
theorem root_weights (c : Dev nD) :
    (V m c main_v34 : S64x256.Idx → EReal)
      = transpose S64x256 [1, 0] (m ((c : Thread nD τ).loc main_arg5)) transposes_S256x64_S64x256_1_0 := by
  show StableHlo.after hostOps0 (fun b => m (c, b)) (Proc.devRef .tc main_v34) = _
  after_results_simp <;> rfl

end Cert.KernelIdeal.Found

end
-- ==== Proof.LibFlatRows.lean ====
/-
  The leading two axes of a rank-3 array merged into one, and split again.

  An `[a, b, c]` array reshaped to `[n, c]` with `n = a · b` rows (`x.reshape(a * b, c)`: a batch of sequences laid out as
  one list of rows) holds at row `i · b + j`, column `k`, the entry `(i, j, k)`; an `[n, c]` matrix reshaped to `[a, b, c]`
  holds at `(i, j, k)` the entry at row `i · b + j`, column `k`. In both directions the two indices sit at the same
  row-major position. The row is passed as its own variable with the equation `r = i · b + j`, so that a caller whose row
  count is a literal (4096, not 2 · 2048) can use the lemmas as they stand.
-/
import Idealize.ShloMosaic.Lib.Pipeline.Value
import Idealize.ShloMosaic.Lib.ValueIdx

namespace Cert.FlatRows

open Idealize.ShloMosaic Idealize.ShloMosaic.ValueIdx

variable {α : Type}

/-- Rows merged: the `[n, c]` reshape of an `[a, b, c]` array reads, at `(r, k)` with `r = i · b + j`, the operand at
    `(i, j, k)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) : shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- Rows split: the `[a, b, c]` reshape of an `[n, c]` matrix reads, at `(i, j, k)`, the operand at `(r, k)` with
    `r = i · b + j`. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) : shapeCast ⟨3, ![a, b, c]⟩ x h (ix3 i j k) = x (ix2 r k) :=
  shapeCast_apply x h _ _ (by
    rw [Shape.rowMajor_val_three, Shape.rowMajor_val_two]
    show r.val * c + k.val = (i.val * b + j.val) * c + k.val
    rw [hr])

end Cert.FlatRows
-- ==== Proof.MeanLaw.lean ====
/-
  The mean over neighbours, scaled or divided, and the layer it feeds.

  A node's neighbour sum `s` is turned into a mean by the node's in-degree clamped below at one, `c = max d 1`. One
  program multiplies by the reciprocal, `s · (1 / c)`; the other divides, `s / c`. On the extended reals division by a
  nonzero `c` is the product with `c⁻¹`, and `c ≥ 1 > 0` whatever `d` is — finite, infinite, or negative — so the two
  agree for every `s` and every `d`: no finiteness of the sums or of the degree is used, and the degree is never
  counted.

  `layer` is the whole graph layer as one function of the neighbour sums `S`, the degrees `D`, the node features `x`
  and the parameters: at batch `b`, node `n`, output feature `h`,
  `max ((∑ₖ (S[b,n,k] / max D[n] 1) · Wl[h,k]) + bias[h] + ∑ₖ x[b,n,k] · Wr[h,k]) 0`.
-/
import Idealize.ShloMosaic.PureOps.Ideal
import Idealize.ShloMosaic.Lib.ValueIdx

noncomputable section

namespace Cert.MeanLayer

open Idealize.ShloMosaic Idealize.ShloMosaic.ValueIdx

/-- The pattern of `1.0` denotes the real one. -/
theorem one_f32 : Ideal.ofBits .f32 0x3F800000#32 = 1 := by
  simp [Ideal.ofBits, Ideal.ieee, -EReal.coe_mul]; norm_num

/-- A degree clamped below at one is positive, hence not zero, whatever the degree. -/
theorem clamp_ne_zero (d : EReal) : max d 1 ≠ 0 :=
  ne_of_gt (lt_of_lt_of_le zero_lt_one (le_max_right d 1))

/-- Scaling by the reciprocal of the clamped degree is dividing by it. -/
theorem scale_by_reciprocal (s d : EReal) : s * Ideal.div 1 (max d 1) = Ideal.div s (max d 1) := by
  unfold Ideal.div
  rw [if_neg (clamp_ne_zero d), if_neg (clamp_ne_zero d), one_mul]

/-- The layer at batch `b`, node `n`, output feature `h`. -/
def layerAt (S : (⟨3, ![8, 55296, 64]⟩ : Shape).Idx → EReal) (D : (⟨1, ![55296]⟩ : Shape).Idx → EReal)
    (x : (⟨3, ![8, 55296, 64]⟩ : Shape).Idx → EReal) (Wl : (⟨2, ![256, 64]⟩ : Shape).Idx → EReal)
    (bias : (⟨1, ![256]⟩ : Shape).Idx → EReal) (Wr : (⟨2, ![256, 64]⟩ : Shape).Idx → EReal)
    (b : Fin 8) (n : Fin 55296) (h : Fin 256) : EReal :=
  max (((∑ k : Fin 64, Ideal.div (S (ix3 b n k)) (max (D (ix1 n)) 1) * Wl (ix2 h k)) + bias (ix1 h))
      + ∑ k : Fin 64, x (ix3 b n k) * Wr (ix2 h k)) (Ideal.ofBits .f32 0x00000000#32)

/-- The layer as an array of shape `[8, 55296, 256]`. -/
def layer (S : (⟨3, ![8, 55296, 64]⟩ : Shape).Idx → EReal) (D : (⟨1, ![55296]⟩ : Shape).Idx → EReal)
    (x : (⟨3, ![8, 55296, 64]⟩ : Shape).Idx → EReal) (Wl : (⟨2, ![256, 64]⟩ : Shape).Idx → EReal)
    (bias : (⟨1, ![256]⟩ : Shape).Idx → EReal) (Wr : (⟨2, ![256, 64]⟩ : Shape).Idx → EReal) :
    (⟨3, ![8, 55296, 256]⟩ : Shape).Idx → EReal :=
  fun i => layerAt S D x Wl bias Wr (i 0) (i 1) (i 2)

end Cert.MeanLayer

end
-- ==== Proof.KernelLayer.lean ====
/-
  The kernel program computes the layer.

  After the region the host program reshapes the 442368 × 256 output to [8, 55296, 256]: entry `(b, n, h)` is row
  `r = 55296·b + n`, column `h` of the flat output. The row arrays the region was launched on are the same reshape the
  other way: row `r` of the flat sums is `S[b, n, ·]`, row `r` of the flat features is `x[b, n, ·]`, and row `r` of the
  reciprocal-degree column is `1 / c[n]` with `c[n] = max D[n] 1` the node's clamped degree (repeated over the batches
  before flattening, so only `n` survives). The transposed weights read `Wl[h, k]`, `Wr[h, k]` at `(k, h)`. So the
  flat row formula at `(r, h)` is

    `max ((∑ₖ (S[b,n,k] · (1 / c[n])) · Wl[h,k]) + bias[h] + ∑ₖ x[b,n,k] · Wr[h,k]) 0`,

  and scaling by the reciprocal of a clamped degree is dividing by it (`MeanLayer.scale_by_reciprocal`): the layer.
-/
import proofs.«159819_j4063039062110_2_alg».proof.Proof.RowTiles
import proofs.«159819_j4063039062110_2_alg».proof.Proof.FoundRows
import proofs.«159819_j4063039062110_2_alg».proof.Proof.FoundScale
import proofs.«159819_j4063039062110_2_alg».proof.Proof.LibFlatRows
import proofs.«159819_j4063039062110_2_alg».proof.Proof.MeanLaw
import Idealize.ShloMosaic.Lib.ValueLayout
import Idealize.ShloMosaic.Lib.StableHlo.Run

noncomputable section

namespace Cert.KernelIdeal.Layer

open Cert.KernelIdeal Cert.KernelIdeal.Gen Idealize.ShloMosaic Idealize.ShloMosaic.TcCoe Idealize.ShloMosaic.ValueIdx
open Idealize.SL.Sem Idealize.ShloMosaic.StableHlo
open Cert.KernelIdeal.RowTiles

/-- The reciprocal-degree column at flat row `r = 55296·b + n`: one over node `n`'s clamped degree `C[n]`. -/
theorem reciprocal_entry (C : S55296.Idx → EReal) (b : Fin 8) (n : Fin 55296) (r : Fin 442368)
    (hr : r.val = b.val * 55296 + n.val) :
    shapeCast S442368x1 (broadcastInDim S8x55296x1 ![0, 1, 2] bcast_S1x55296x1_S8x55296x1_0_1_2
        (broadcastInDim S1x55296x1 ![1] bcast_S55296_S1x55296x1_1
          (Host.divf (F := Ideal) (broadcastInDim S55296 ![] bcast_S_S55296 (constant (F := Ideal) S_ .f32 0x3F800000#32)) C)))
        shapeCasts_S8x55296x1_S442368x1 (ix2 r (0 : Fin 1))
      = Ideal.div 1 (C (ix1 n)) := by
  rw [Cert.FlatRows.shapeCast_abc_nc_apply _ _ b n (0 : Fin 1) r hr,
    broadcastInDim_apply _ bcast_S1x55296x1_S8x55296x1_0_1_2 _ (ix3 b n (0 : Fin 1)) (ix3 (0 : Fin 1) n (0 : Fin 1))
      (fun a => match a with
        | ⟨0, _⟩ => by show 0 = if (1 : Nat) = 1 then 0 else b.val; rw [if_pos rfl]
        | ⟨1, _⟩ => by show n.val = if (55296 : Nat) = 1 then 0 else n.val; rw [if_neg (by decide)]
        | ⟨2, _⟩ => by show 0 = if (1 : Nat) = 1 then 0 else 0; rw [if_pos rfl]),
    broadcastInDim_apply _ bcast_S55296_S1x55296x1_1 _ (ix3 (0 : Fin 1) n (0 : Fin 1)) (ix1 n)
      (fun a => match a with
        | ⟨0, _⟩ => by show n.val = if (55296 : Nat) = 1 then 0 else n.val; rw [if_neg (by decide)])]
  show Ideal.div (Ideal.ofBits .f32 0x3F800000#32) (C (ix1 n)) = _
  rw [Cert.MeanLayer.one_f32]

/-- The flat row formula on the reshaped arrays, reshaped back, is the layer: for neighbour sums `S`, degrees `D` with
    clamp `C[n] = max D[n] 1`, features `x`, weights `Wl`, `Wr` and bias. -/
theorem reshaped_rows_is_layer (S : S8x55296x64.Idx → EReal) (D C : S55296.Idx → EReal)
    (hC : ∀ n : Fin 55296, C (ix1 n) = max (D (ix1 n)) 1)
    (x : S8x55296x64.Idx → EReal) (Wl : S256x64.Idx → EReal) (bias : S256.Idx → EReal) (Wr : S256x64.Idx → EReal) :
    shapeCast S8x55296x256
        (rows (shapeCast S442368x64 S shapeCasts_S8x55296x64_S442368x64)
          (shapeCast S442368x64 x shapeCasts_S8x55296x64_S442368x64)
          (shapeCast S442368x1 (broadcastInDim S8x55296x1 ![0, 1, 2] bcast_S1x55296x1_S8x55296x1_0_1_2
            (broadcastInDim S1x55296x1 ![1] bcast_S55296_S1x55296x1_1
              (Host.divf (F := Ideal) (broadcastInDim S55296 ![] bcast_S_S55296 (constant (F := Ideal) S_ .f32 0x3F800000#32)) C)))
            shapeCasts_S8x55296x1_S442368x1)
          (transpose S64x256 [1, 0] Wl transposes_S256x64_S64x256_1_0) bias
          (transpose S64x256 [1, 0] Wr transposes_S256x64_S64x256_1_0))
        shapeCasts_S442368x256_S8x55296x256
      = Cert.MeanLayer.layer S D x Wl bias Wr := by
  funext i
  obtain ⟨b, n, h, rfl⟩ : ∃ (b : Fin 8) (n : Fin 55296) (h : Fin 256), i = ix3 b n h := ⟨i 0, i 1, i 2, eq_ix3 i⟩
  have hb : b.val < 8 := b.isLt
  have hn : n.val < 55296 := n.isLt
  obtain ⟨r, hr⟩ : ∃ r : Fin 442368, r.val = b.val * 55296 + n.val := ⟨⟨b.val * 55296 + n.val, by omega⟩, rfl⟩
  rw [Cert.FlatRows.shapeCast_nc_abc_apply _ _ b n h r hr]
  show rowAt _ _ _ _ _ _ r h = Cert.MeanLayer.layerAt S D x Wl bias Wr b n h
  unfold rowAt Cert.MeanLayer.layerAt
  rw [reciprocal_entry C b n r hr, hC n]
  refine congrArg₂ max (congrArg₂ (· + ·) (congrArg₂ (· + ·) (Finset.sum_congr rfl fun k _ => ?_) rfl)
    (Finset.sum_congr rfl fun k _ => ?_)) rfl
  · rw [Cert.FlatRows.shapeCast_abc_nc_apply S _ b n k r hr, transpose_ix2_apply, Cert.MeanLayer.scale_by_reciprocal]
  · rw [Cert.FlatRows.shapeCast_abc_nc_apply x _ b n k r hr, transpose_ix2_apply]

variable (m : (ℓ : Loc nD τ sig) → Buf (Elt Ideal) ℓ) (ρ : Dev nD → PrngReg)

/-- The program's result buffer after the lines that follow the region: the reshape of the region's output array. -/
theorem result_is_reshape (c : Dev nD) :
    (Pipeline.afterTail₀ cfgs (dats m) 0 (V0 m) [hostOps1] c main_v36 : S8x55296x256.Idx → EReal)
      = shapeCast S8x55296x256 ((dats m 0 c).arrAt 6 cfg0.N) shapeCasts_S442368x256_S8x55296x256 := by
  unfold Pipeline.afterTail₀
  show StableHlo.after hostOps1 _ (Proc.devRef .tc main_v36) = _
  after_results
  refine funext fun i => ?_
  show shapeCast S8x55296x256 (Pipeline.withArrays spec0 c (V0 m c) (fun w => (dats m 0 c).arrAt w cfg0.N)
      (Proc.devRef .tc (Pipeline.arrRef spec0 6))) shapeCasts_S442368x256_S8x55296x256 i = _
  rw [Pipeline.withArrays_arr spec0 launch0.win.arr_inj c]

/-- The reference's clamped-degree stage is its degree stage clamped below at the real one. -/
theorem clamp_entry (x2 : (⟨Cert.ReferenceIdeal.S221184, .i32⟩ : BufTy).Contents (Elt Ideal)) (n : Fin 55296) :
    Cert.ReferenceIdeal.Read.val_main_v25 (F := Ideal) x2 (ix1 n)
      = max (Cert.ReferenceIdeal.Read.val_main_v23 (F := Ideal) x2 (ix1 n)) 1 := by
  rw [Cert.ReferenceIdeal.Read.val_main_v25_apply, Cert.ReferenceIdeal.Read.val_main_v24_apply,
    Cert.ReferenceIdeal.Read.val_main_cst_7_apply]
  show max _ (Ideal.ofBits .f32 0x3F800000#32) = _
  rw [Cert.MeanLayer.one_f32]

/-- The program's result is the layer of the reference's neighbour-sum and degree stages of the arguments. -/
theorem result_is_layer (c : Dev nD) :
    (Pipeline.afterTail₀ cfgs (dats m) 0 (V0 m) [hostOps1] c main_v36 : S8x55296x256.Idx → EReal)
      = Cert.MeanLayer.layer
          (Cert.ReferenceIdeal.Read.val_main_v14 (F := Ideal) (m ((c : Thread nD τ).loc main_arg0))
            (m ((c : Thread nD τ).loc main_arg1)) (m ((c : Thread nD τ).loc main_arg2)))
          (Cert.ReferenceIdeal.Read.val_main_v23 (F := Ideal) (m ((c : Thread nD τ).loc main_arg2)))
          (m ((c : Thread nD τ).loc main_arg0)) (m ((c : Thread nD τ).loc main_arg3))
          (m ((c : Thread nD τ).loc main_arg4)) (m ((c : Thread nD τ).loc main_arg5)) := by
  rw [result_is_reshape, rows_written, Cert.KernelIdeal.Found.sums_rows, Cert.KernelIdeal.Found.feature_rows,
    Cert.KernelIdeal.Found.reciprocal_rows, Cert.KernelIdeal.Found.neighbour_weights,
    Cert.KernelIdeal.Found.root_weights, V_main_arg4]
  exact reshaped_rows_is_layer _ _ _ (clamp_entry _) _ _ _ _

/-- THE RUN, READ: every weakly fair execution of the program terminates with its result the layer of the arguments
    and the arguments unchanged. -/
theorem run : θ_run defs (onTc (τ := τ) (main (F := Ideal))) ⟨m, fun _ => 0, ρ⟩ fun r => ∀ c : Dev nD,
      r.2.mem ((c.tc : Thread nD τ).loc main_v36) = Cert.MeanLayer.layer
          (Cert.ReferenceIdeal.Read.val_main_v14 (F := Ideal) (m ((c : Thread nD τ).loc main_arg0))
            (m ((c : Thread nD τ).loc main_arg1)) (m ((c : Thread nD τ).loc main_arg2)))
          (Cert.ReferenceIdeal.Read.val_main_v23 (F := Ideal) (m ((c : Thread nD τ).loc main_arg2)))
          (m ((c : Thread nD τ).loc main_arg0)) (m ((c : Thread nD τ).loc main_arg3))
          (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v36 (Pipeline.mem_restRefs_of main_v36 (by decide) (by decide))).trans (result_is_layer m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 4).trans ((((dats m 0 c).arrAt_in 4 rfl _).trans ((A_eq m c 4).trans (V_main_arg4 m c)))),
      ((h c).2 main_arg5 (Pipeline.mem_restRefs_of main_arg5 (by decide) (by decide))).trans (W_main_arg5 m (dats m) c)⟩)
    (run_main m ρ)

end Cert.KernelIdeal.Layer

end
-- ==== Proof.ReferenceLayer.lean ====
/-
  The reference program computes the layer.

  Read one operation at a time, the reference's result at batch `b`, node `n`, output feature `h` is
  `max ((∑ₖ (S[b,n,k] / max D[n] 1) · Wl[h,k]) + bias[h] + ∑ₖ x[b,n,k] · Wr[h,k]) 0`, where `S` is its neighbour-sum stage and
  `D` its degree stage (both left closed): the clamped degree reaches the quotient through two broadcasts that keep the
  node coordinate, each contraction runs over the 64 input features of a row of its left operand against a row of the
  weight matrix, the bias is repeated over batches and nodes, and the clamp's literal is the real one.
-/
import proofs.«159819_j4063039062110_2_alg».proof.Proof.Gen.ReferenceIdeal.Read
import proofs.«159819_j4063039062110_2_alg».proof.Proof.MeanLaw

noncomputable section

namespace Cert.ReferenceIdeal.Layer

open Cert.ReferenceIdeal Cert.ReferenceIdeal.Read Idealize.ShloMosaic Idealize.ShloMosaic.ValueIdx

/-- The reference's result stage is `layer` of its own neighbour sums and degrees and of its arguments. -/
theorem result_is_layer (x0 : (⟨S8x55296x64, .f32⟩ : BufTy).Contents (Elt Ideal))
    (x1 x2 : (⟨S221184, .i32⟩ : BufTy).Contents (Elt Ideal)) (x3 : (⟨S256x64, .f32⟩ : BufTy).Contents (Elt Ideal))
    (x4 : (⟨S256, .f32⟩ : BufTy).Contents (Elt Ideal)) (x5 : (⟨S256x64, .f32⟩ : BufTy).Contents (Elt Ideal)) :
    val_main_v35 (F := Ideal) x0 x1 x2 x3 x4 x5
      = Cert.MeanLayer.layer (val_main_v14 (F := Ideal) x0 x1 x2) (val_main_v23 (F := Ideal) x2) x0 x3 x4 x5 := by
  funext i
  obtain ⟨b, n, h, rfl⟩ : ∃ (b : Fin 8) (n : Fin 55296) (h : Fin 256), i = ix3 b n h := ⟨i 0, i 1, i 2, eq_ix3 i⟩
  have hl : ∀ k : Fin 64, lidx_main_v29 (ix3 b n h) k = ix3 b n k := fun k =>
    funext fun a => Fin.ext (by match a with | ⟨0, _⟩ => rfl | ⟨1, _⟩ => rfl | ⟨2, _⟩ => rfl)
  have hr : ∀ k : Fin 64, ridx_main_v29 (ix3 b n h) k = ix2 h k := fun k =>
    funext fun a => Fin.ext (by match a with | ⟨0, _⟩ => rfl | ⟨1, _⟩ => rfl)
  have hl' : ∀ k : Fin 64, lidx_main_v33 (ix3 b n h) k = ix3 b n k := fun k =>
    funext fun a => Fin.ext (by match a with | ⟨0, _⟩ => rfl | ⟨1, _⟩ => rfl | ⟨2, _⟩ => rfl)
  have hr' : ∀ k : Fin 64, ridx_main_v33 (ix3 b n h) k = ix2 h k := fun k =>
    funext fun a => Fin.ext (by match a with | ⟨0, _⟩ => rfl | ⟨1, _⟩ => rfl)
  have hb : idx_main_v30 (idx_main_v31 (ix3 b n h)) = ix1 h :=
    funext fun a => Fin.ext (by match a with | ⟨0, _⟩ => rfl)
  have hd : ∀ k : Fin 64, idx_main_v26 (idx_main_v27 (ix3 b n k)) = ix1 n := fun k =>
    funext fun a => Fin.ext (by match a with | ⟨0, _⟩ => rfl)
  rw [val_main_v35_apply, val_main_v34_apply, val_main_v32_apply, val_main_v29_apply, val_main_v33_apply,
    val_main_v31_apply, val_main_v30_apply, val_main_call0_v0_apply, val_main_call0_cst_apply]
  simp only [hl, hr, hl', hr', hb, val_main_v28_apply, val_main_v27_apply, val_main_v26_apply, val_main_v25_apply,
    val_main_v24_apply, val_main_cst_7_apply, hd, Ideal.maximumf_def, Ideal.addf_def, Ideal.hostDivf_def,
    Ideal.ofBits_def, Cert.MeanLayer.one_f32]
  rfl

end Cert.ReferenceIdeal.Layer

end
-- ==== Proof.lean ====
/-
  A graph layer with mean aggregation, computed two ways, is one function on the extended reals.

  Both programs gather each edge's source features, add them into the edge's destination node (the neighbour sums `S`,
  [8, 55296, 64]) and count each node's in-degree `D` ([55296]) — the same host operations in the same order, carried
  here as two closed arrays. From there the reference divides, `S[b,n,k] / max D[n] 1`, contracts the mean and the node
  features against the two 256 × 64 weight matrices, adds the bias and clamps below at zero. The kernel program instead
  forms `1 / max D[n] 1` per node, lays sums, features and that reciprocal out as 442368 = 8 · 55296 flat rows, and runs a
  region over 72 tiles of 6144 rows whose body scales each row of sums by its reciprocal, takes both products against
  the transposed weights (roundings to bf16 are the identity on the extended reals), adds the bias and clamps; the flat
  output is reshaped back to [8, 55296, 256].

  The two agree entry by entry because dividing by a clamped degree `c = max d 1` is multiplying by `1 / c`: `c ≥ 1` is
  never zero, and division by a nonzero extended real is the product with its inverse, for every numerator. No
  finiteness of the inputs is used, and neither the gather nor the two scatter-adds is opened.

  The modules: `MeanLaw` (the law and the layer as one function), `ReferenceLayer` (the reference's result is the layer),
  `RowBlock` (one tile through the body, at an entry), `RowTiles` (tiles to the whole flat array), `FoundRows` /
  `FoundScale` (the arrays the region is launched on), `KernelLayer` (the flat rows reshaped back are the layer, and the
  program's run). The frames of the two kernel programs and the reference's run are the generated ones; the ideal
  pass rewrote nothing, so the idealization claim is trivial.
-/
import proofs.«159819_j4063039062110_2_alg».proof.Defs
import proofs.«159819_j4063039062110_2_alg».proof.Proof.Gen.Kernel
import proofs.«159819_j4063039062110_2_alg».proof.Proof.Gen.Kernel.Skeleton
import proofs.«159819_j4063039062110_2_alg».proof.Proof.Gen.Kernel.Launch
import proofs.«159819_j4063039062110_2_alg».proof.Proof.Gen.Kernel.Points
import proofs.«159819_j4063039062110_2_alg».proof.Proof.Gen.Kernel.Frame
import proofs.«159819_j4063039062110_2_alg».proof.Proof.Gen.KernelIdeal
import proofs.«159819_j4063039062110_2_alg».proof.Proof.Gen.KernelIdeal.Skeleton
import proofs.«159819_j4063039062110_2_alg».proof.Proof.Gen.KernelIdeal.Launch
import proofs.«159819_j4063039062110_2_alg».proof.Proof.Gen.KernelIdeal.Points
import proofs.«159819_j4063039062110_2_alg».proof.Proof.Gen.KernelIdeal.Frame
import proofs.«159819_j4063039062110_2_alg».proof.Proof.Gen.ReferenceIdeal
import proofs.«159819_j4063039062110_2_alg».proof.Proof.Gen.ReferenceIdeal.Run
import proofs.«159819_j4063039062110_2_alg».proof.Proof.Gen.ReferenceIdeal.Read
import proofs.«159819_j4063039062110_2_alg».proof.Proof.Gen.Pre_finite_inputs
import proofs.«159819_j4063039062110_2_alg».proof.Proof.KernelLayer
import proofs.«159819_j4063039062110_2_alg».proof.Proof.ReferenceLayer
import Idealize.ShloMosaic.Adequacy
import Idealize.ShloMosaic.Init

noncomputable section

namespace Cert.Proof

open Idealize.ShloMosaic Idealize.SL.Sem

/-- The word-level kernel program terminates without a fault and leaves its arguments unchanged. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both programs end with the layer of the arguments: the kernel program by
    `KernelLayer.run`, the reference by its run read as the layer; the agreement carries one to the other. -/
theorem algebraic : Cert.algebraic_KernelIdeal_ReferenceIdeal := by
  intro m ρ m' ρ' _ hagree
  refine ⟨_, Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, Cert.ReferenceIdeal.Layer.result_is_layer, (hagree c).1,
    (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
